-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x100x6x32x32 : Shape := ⟨5, ![128, 100, 6, 32, 32]⟩
abbrev S_ : Shape := ⟨0, ![]⟩

class Facts : Prop where
  bcast_S_S128x100x6x32x32 : S_.BroadcastsInDim S128x100x6x32x32 (![] : Fin 0 → Fin S128x100x6x32x32.rank)
  reducesTo_S128x100x6x32x32_S_d0_1_2_3_4 : S128x100x6x32x32.ReducesTo [0, 1, 2, 3, 4] S_
  h_S_ : 0 < S_.numel

variable [Facts]

def fn {F : FTy → Type} [FloatOps F] (main_arg0 : FVec F S128x100x6x32x32 .f32) (main_arg1 : FVec F S128x100x6x32x32 .f32) : IVec S_ 1 :=
  let main_v0 : FVec F S128x100x6x32x32 .f32 := Host.absf main_arg0
  let main_cst : FVec F S_ .f32 := constant S_ .f32 0x7F800000#32
  let main_v1 : FVec F S128x100x6x32x32 .f32 := broadcastInDim S128x100x6x32x32 ![] bcast_S_S128x100x6x32x32 main_cst
  let main_v2 : IVec S128x100x6x32x32 1 := cmpf .olt main_v0 main_v1
  let main_c : IVec S_ 1 := constantI S_ 1 1#1
  let main_v3 : IVec S_ 1 := (fun x v => Host.reduce IntOp.andi x v reducesTo_S128x100x6x32x32_S_d0_1_2_3_4 h_S_) main_v2 main_c
  let main_v4 : FVec F S128x100x6x32x32 .f32 := Host.absf main_arg1
  let main_cst_0 : FVec F S_ .f32 := constant S_ .f32 0x7F800000#32
  let main_v5 : FVec F S128x100x6x32x32 .f32 := broadcastInDim S128x100x6x32x32 ![] bcast_S_S128x100x6x32x32 main_cst_0
  let main_v6 : IVec S128x100x6x32x32 1 := cmpf .olt main_v4 main_v5
  let main_c_1 : IVec S_ 1 := constantI S_ 1 1#1
  let main_v7 : IVec S_ 1 := (fun x v => Host.reduce IntOp.andi x v reducesTo_S128x100x6x32x32_S_d0_1_2_3_4 h_S_) main_v6 main_c_1
  let main_v8 : IVec S_ 1 := andi main_v3 main_v7
  main_v8
-- ==== Kernel.lean ====
abbrev S128x100x6x32x32 : Shape := ⟨5, ![128, 100, 6, 32, 32]⟩
abbrev S1x1 : Shape := ⟨2, ![1, 1]⟩
abbrev S8x10x3x32x32 : Shape := ⟨5, ![8, 10, 3, 32, 32]⟩
abbrev S240x1024 : Shape := ⟨2, ![240, 1024]⟩
abbrev S240 : Shape := ⟨1, ![240]⟩
abbrev S240x1 : Shape := ⟨2, ![240, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S128x100x6x32x32, .f32⟩
  | .hbm, ⟨1, _⟩ => ⟨S128x100x6x32x32, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S8x10x3x32x32, .f32⟩
  | .local _ .vmem, ⟨1, _⟩ => ⟨S8x10x3x32x32, .f32⟩
  | .local _ .vmem, ⟨2, _⟩ => ⟨S8x10x3x32x32, .f32⟩
  | .local _ .vmem, ⟨3, _⟩ => ⟨S8x10x3x32x32, .f32⟩
  | .local _ .vmem, ⟨4, _⟩ => ⟨S1x1, .f32⟩
  | .local _ .vmem, ⟨5, _⟩ => ⟨S1x1, .f32⟩
  | _, _ => ⟨S128x100x6x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![16, 10], ![false, false]⟩

def k0_cond2 (i : grid0.Coords) : BitVec 1 :=
  let arg0 : BitVec 32 := BitVec.ofNat 32 (i 0).val
  let c15_i32 : BitVec 32 := 15#32
  let v19 : BitVec 1 := Scalar.cmpi .eq arg0 c15_i32
  let arg1 : BitVec 32 := BitVec.ofNat 32 (i 1).val
  let c9_i32 : BitVec 32 := 9#32
  let v20 : BitVec 1 := Scalar.cmpi .eq arg1 c9_i32
  let v21 : BitVec 1 := Scalar.andi v19 v20
  let v22 : BitVec 32 := Scalar.extui v21
  let c0_i32_16 : BitVec 32 := 0#32
  let v23 : BitVec 1 := Scalar.cmpi .ne v22 c0_i32_16
  v23

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x10x3x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x10x3x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x10x3x32x32_S8x10x3x32x32_0_0_0_0_0 : ∀ a, (![0, 0, 0, 0, 0] : Fin 5 → Nat) a + S8x10x3x32x32.size a ≤ S8x10x3x32x32.size a
  h_S8x10x3x32x32 : 0 < S8x10x3x32x32.numel
  shapeCasts_S8x10x3x32x32_S240x1024 : S8x10x3x32x32.ShapeCasts S240x1024
  reduces_S240x1024_S240 : S240x1024.Reduces [1] S240
  shapeCasts_S240_S240x1 : S240.ShapeCasts S240x1
  reduces_S240x1_S1 : S240x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x10x3x32x32.size a ≤ S128x100x6x32x32.size a
  hwx0_0 : ∀ i : grid0.Coords, EltTy.bits .f32 = 32 ∨ (Rect.block (s := S128x100x6x32x32) S8x10x3x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x10x3x32x32.size a ≤ S128x100x6x32x32.size a
  hwx0_1 : ∀ i : grid0.Coords, EltTy.bits .f32 = 32 ∨ (Rect.block (s := S128x100x6x32x32) S8x10x3x32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S8x10x3x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x10x3x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x100x6x32x32 : Shape := ⟨5, ![128, 100, 6, 32, 32]⟩
abbrev S128x100x3x32x32 : Shape := ⟨5, ![128, 100, 3, 32, 32]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S128x100x6x32x32, .f32⟩
  | .hbm, ⟨1, _⟩ => ⟨S128x100x6x32x32, .f32⟩
  | .hbm, ⟨2, _⟩ => ⟨S128x100x3x32x32, .f32⟩
  | .hbm, ⟨3, _⟩ => ⟨S128x100x3x32x32, .f32⟩
  | .hbm, ⟨4, _⟩ => ⟨S128x100x3x32x32, .f32⟩
  | .hbm, ⟨5, _⟩ => ⟨S128x100x3x32x32, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | _, _ => ⟨S128x100x6x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  slices_S128x100x6x32x32_S128x100x3x32x32_0_0_0_0_0 : S128x100x6x32x32.Slices ![0, 0, 0, 0, 0] S128x100x3x32x32
  reducesTo_S128x100x3x32x32_S_d0_1_2_3_4 : S128x100x3x32x32.ReducesTo [0, 1, 2, 3, 4] S_
  h_S_ : 0 < S_.numel

variable [Facts₀]

class Facts : Prop extends Facts₀ where

variable [Facts]
-- ==== Proof.CaseValues.lean ====
/-
  What one run of the kernel body leaves behind, case by case.

  The body adds the block's sum of absolute differences to a one-element accumulator that lives across grid points.
  At the first point the accumulator is first set to zero; at the last point its new content is also copied to the
  output's buffer. In every case the accumulator ends at the same pure term of the two input blocks and of the
  accumulator's previous content (zero at the first point).
-/
import proofs.«139717_j33758442946605_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

theorem zeros2 : (![0, 0] : Fin 2 → Nat) = fun _ => 0 := funext fun a => by fin_cases a <;> rfl
theorem zeros5 : (![0, 0, 0, 0, 0] : Fin 5 → Nat) = fun _ => 0 := funext fun a => by fin_cases a <;> rfl

/-- A middle point: the accumulator, found at `acc`, is left at the body's one sum over the blocks added to `acc`. -/
theorem acc_middle (c : Dev nD) (i : grid0.Coords) (a2 : Memref sig .tc .vmem S8x10x3x32x32 .f32) (h2 : a2.IsWhole)
    (a3 : Memref sig .tc .vmem S8x10x3x32x32 .f32) (h3 : a3.IsWhole) (a4 : Memref sig .tc .vmem S1x1 .f32) (h4 : a4.IsWhole)
    (a5 : Memref sig .tc .vmem S1x1 .f32) (h5 : a5.IsWhole) (hc0 : ¬cond0_0 i) (hc1 : ¬cond0_1 i)
    (x0 x1 : Vec F S8x10x3x32x32 .f32) (acc : Vec F S1x1 .f32) :
    sout0_B_0 c i a2 h2 a3 h3 a4 h4 a5 h5 hc0 hc1 x0 x1 acc = k0_pay2 x1 x0 acc := by
  unfold sout0_B_0
  rw [View.read_writes_eq_canon _ _ _ (scover0_B_0 c i a2 h2 a3 h3 a4 h4 a5 h5 hc0 hc1 x0 x1 acc)]
  unfold kernelRun0_B
  dsimp only
  rw [View.canon_unit_zero zeros2]
  simp only [View.readAt_eq_ld, h2.read_unread, h3.read_unread, h5.read_unread,
    View.ld_unit_zero (S := S8x10x3x32x32) zeros5, View.ld_unit_zero (S := S1x1) zeros2]

/-- The last point: the accumulator is left exactly as at a middle point, -/
theorem acc_last (c : Dev nD) (i : grid0.Coords) (a2 : Memref sig .tc .vmem S8x10x3x32x32 .f32) (h2 : a2.IsWhole)
    (a3 : Memref sig .tc .vmem S8x10x3x32x32 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 x1 : Vec F S8x10x3x32x32 .f32) (acc : Vec F S1x1 .f32) :
    sout0_C_0 c i a2 h2 a3 h3 a4 h4 a5 h5 hc0 hc1 x0 x1 acc = k0_pay2 x1 x0 acc := by
  unfold sout0_C_0
  rw [View.read_writes_eq_canon _ _ _ (scover0_C_0 c i a2 h2 a3 h3 a4 h4 a5 h5 hc0 hc1 x0 x1 acc)]
  unfold kernelRun0_C
  dsimp only
  sl_unfold_words
  rw [View.canon_unit_zero zeros2]
  simp only [View.readAt_eq_ld, h2.read_unread, h3.read_unread, h5.read_unread,
    View.ld_unit_zero (S := S8x10x3x32x32) zeros5, View.ld_unit_zero (S := S1x1) zeros2]

/-- and the output's buffer receives the accumulator's new content. -/
theorem out_last (c : Dev nD) (i : grid0.Coords) (a2 : Memref sig .tc .vmem S8x10x3x32x32 .f32) (h2 : a2.IsWhole)
    (a3 : Memref sig .tc .vmem S8x10x3x32x32 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x0 x1 : Vec F S8x10x3x32x32 .f32) (acc : Vec F S1x1 .f32) :
    out0_C_2 c i a2 h2 a3 h3 a4 h4 a5 h5 hc0 hc1 x0 x1 acc = k0_pay2 x1 x0 acc := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero zeros2, View.readCov_unit_zero (S := S1x1) _ zeros2]
  simp only [View.readAt_eq_ld, h2.read_unread, h3.read_unread, h5.read_unread,
    View.ld_unit_zero (S := S8x10x3x32x32) zeros5, View.ld_unit_zero (S := S1x1) zeros2]

/-- The first point: the accumulator is set to the zero block and then left at the body's sum added to that. -/
theorem acc_first (c : Dev nD) (i : grid0.Coords) (a2 : Memref sig .tc .vmem S8x10x3x32x32 .f32) (h2 : a2.IsWhole)
    (a3 : Memref sig .tc .vmem S8x10x3x32x32 .f32) (h3 : a3.IsWhole) (a4 : Memref sig .tc .vmem S1x1 .f32) (h4 : a4.IsWhole)
    (a5 : Memref sig .tc .vmem S1x1 .f32) (h5 : a5.IsWhole) (hc0 : cond0_0 i) (hc1 : ¬cond0_1 i)
    (x0 x1 : Vec F S8x10x3x32x32 .f32) :
    sout0_A_0 c i a2 h2 a3 h3 a4 h4 a5 h5 hc0 hc1 x0 x1 = k0_pay2 x1 x0 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) zeros2, View.readCov_unit_zero (S := S1x1) _ zeros2]
  simp only [View.readAt_eq_ld, h2.read_unread, h3.read_unread,
    View.ld_unit_zero (S := S8x10x3x32x32) zeros5]

end Cert.KernelIdeal.CaseValues

end
-- ==== Proof.PointValues.lean ====
/-
  The accumulator and the output's buffer after each grid point, in terms of the body's one term.

  After the first point the accumulator holds the body's term over the zero block; after any later point it holds the
  body's term over what the point before left; and after the last point the output's buffer holds the same as the
  accumulator.
-/
import proofs.«139717_j33758442946605_2_alg».proof.Proof.CaseValues

noncomputable section

open Idealize.ShloMosaic Idealize.ShloMosaic.TcCoe Idealize.SL.Sem

namespace Cert.KernelIdeal.PointValues

open Cert.KernelIdeal Cert.KernelIdeal.Gen Cert.KernelIdeal.CaseValues

variable {F : FTy → Type} [FloatOps F]
variable (m : (ℓ : Loc nD τ sig) → Buf (Elt F) ℓ)

/-- After the first point. -/
theorem acc_at_first (c : Dev nD) (t : Fin cfg0.N) (h0 : t.val % 160 = 0) (h1 : ¬t.val % 160 = 159) :
    (outsAt0 m c t.val t.isLt).2 = k0_pay2 (iblk m c 1 t) (iblk m c 0 t) (k0_pay1 (F := F)) := by
  rw [outsAt0_A m c t h0 h1]
  exact acc_first c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After a later point: the body's term over what the point before left. -/
theorem acc_at_later (c : Dev nD) (t : Fin cfg0.N) (h0 : ¬t.val % 160 = 0) (h' : t.val - 1 < cfg0.N) :
    (outsAt0 m c t.val t.isLt).2 = k0_pay2 (iblk m c 1 t) (iblk m c 0 t) (outsAt0 m c (t.val - 1) h').2 := by
  by_cases h1 : t.val % 160 = 159
  · rw [outsAt0_C m c t h0 h1]
    exact acc_last c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) h').2
  · rw [outsAt0_B m c t h0 h1]
    exact acc_middle c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) h').2

/-- After the last point the output's buffer holds what the accumulator holds. -/
theorem out_at_last (c : Dev nD) (t : Fin cfg0.N) (h0 : ¬t.val % 160 = 0) (h1 : t.val % 160 = 159) :
    (outsAt0 m c t.val t.isLt).1 = (outsAt0 m c t.val t.isLt).2 := by
  rw [outsAt0_C m c t h0 h1]
  exact (out_last c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t) _).trans
    (acc_last c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t) _).symm

end Cert.KernelIdeal.PointValues

end
-- ==== Proof.BodySum.lean ====
/-
  The body's arithmetic on the extended reals.

  The body takes the two blocks' entrywise difference and its absolute value, lays the block out as 240 rows of 1024
  entries, sums each row, sums the 240 row sums, and adds the result to the accumulator. Summing every row and then
  the column of row sums adds every entry exactly once, and laying a block out in another shape only renames its
  entries; so the body leaves the accumulator plus the sum, over the block, of the absolute differences.
-/
import proofs.«139717_j33758442946605_2_alg».proof.Proof.Gen.KernelIdeal.Skeleton
import Idealize.ShloMosaic.PureOps.Ideal.Laws
import Idealize.ShloMosaic.Lib.Pipeline.Value
import Idealize.ShloMosaic.Lib.ValueIdx

noncomputable section

open Idealize.ShloMosaic
open scoped BigOperators

namespace Cert.KernelIdeal.BodySum

open Cert.KernelIdeal Cert.KernelIdeal.Gen

/-- Row sums, then the sum of the column of row sums: every entry of the 240 x 1024 layout is added once. -/
theorem rows_then_column (v : S240x1024.Idx → EReal) (h1 : S240x1024.Reduces [1] S240) (hc : S240.ShapeCasts S240x1)
    (h2 : S240x1.Reduces [0] S1) (j : S1.Idx) :
    Ideal.reduceAdd h2 (shapeCast S240x1 (Ideal.reduceAdd h1 v) hc) j = ∑ i : S240x1024.Idx, v i := by
  rw [Ideal.reduceAdd_total h2 (fun b => by fin_cases b; rfl) _ j]
  show ∑ i : S240x1.Idx, Ideal.reduceAdd h1 v (Shape.reshapeEquiv hc i) = _
  rw [Equiv.sum_comp (Shape.reshapeEquiv hc) (Ideal.reduceAdd h1 v)]
  unfold Ideal.reduceAdd
  exact Finset.sum_fiberwise Finset.univ (fun i => h1.drop i) v

/-- A block laid out in another shape has the same sum. -/
theorem sum_relaid {s s' : Shape} (v : s.Idx → EReal) (h : s.ShapeCasts s') :
    ∑ i : s'.Idx, shapeCast s' v h i = ∑ y : s.Idx, v y :=
  Equiv.sum_comp (Shape.reshapeEquiv h) v

/-- The zero block the first point stores is zero. -/
theorem zero_block (j : S1x1.Idx) : k0_pay1 (F := Ideal) j = 0 := by
  unfold k0_pay1
  rw [shapeCast_self]
  exact Ideal.ofBits_zero_f32

/-- What the body leaves in the accumulator: its previous content plus the sum over the block of `|a - b|`. -/
theorem body_sum (a b : Vec Ideal S8x10x3x32x32 .f32) (acc : Vec Ideal S1x1 .f32) (j : S1x1.Idx) :
    k0_pay2 (F := Ideal) a b acc j = acc j + ∑ y : S8x10x3x32x32.Idx, max (a y - b y) (-(a y - b y)) := by
  unfold k0_pay2
  rw [shapeCast_self]
  show acc j + Ideal.reduceAdd reduces_S240x1_S1 (shapeCast S240x1 (Ideal.reduceAdd reduces_S240x1024_S240
      (shapeCast S240x1024 (fun y : S8x10x3x32x32.Idx => max (a y - b y) (-(a y - b y))) shapeCasts_S8x10x3x32x32_S240x1024))
      shapeCasts_S240_S240x1) (Shape.reshapeEquiv shapeCasts_S1_S1x1 j) = _
  rw [rows_then_column, sum_relaid]

end Cert.KernelIdeal.BodySum

end
-- ==== Proof.Spec.lean ====
/-
  The mean absolute difference of two arrays over their first three channels, as one function of the arrays.

  The arrays have shape 128 x 100 x 6 x 32 x 32; only channels 0, 1, 2 are read: the REGION, of shape
  128 x 100 x 3 x 32 x 32. The value is (the sum over the region of |x1 - x0|) divided by the number of entries.

  The region can also be walked block by block: 16 x 10 blocks of shape 8 x 10 x 3 x 32 x 32, block number
  t = 10 a + b sitting at rows 8 a .. 8 a + 7 of the first axis and 10 b .. 10 b + 9 of the second. Entry y of block t
  and entry (8 a + y0, 10 b + y1, y2, y3, y4) of the region are the same entry of the array, and
  (t, y) <-> that entry is a bijection; so the sum over the blocks of the blocks' sums is the sum over the region,
  in any commutative monoid: only commutativity and associativity of the addition are used, never finiteness.
-/
import Idealize.ShloMosaic.PureOps.Ideal
import Idealize.ShloMosaic.Lib.ValueIdx

noncomputable section

namespace Cert.MeanAbsDiff

open Idealize.ShloMosaic
open scoped BigOperators

/-- The arrays' shape, the region's and a block's. -/
abbrev Arr : Shape := ⟨5, ![128, 100, 6, 32, 32]⟩
abbrev Region : Shape := ⟨5, ![128, 100, 3, 32, 32]⟩
abbrev Block : Shape := ⟨5, ![8, 10, 3, 32, 32]⟩

/-- An entry of the region, as an entry of the array: the same coordinates. -/
def regionIdx (j : Region.Idx) : Arr.Idx := fun a => match a with
  | ⟨0, _⟩ => ⟨(j 0).val, (j 0).isLt⟩
  | ⟨1, _⟩ => ⟨(j 1).val, (j 1).isLt⟩
  | ⟨2, _⟩ => ⟨(j 2).val, by have h2 : (j 2).val < 3 := (j 2).isLt; show (j 2).val < 6; omega⟩
  | ⟨3, _⟩ => ⟨(j 3).val, (j 3).isLt⟩
  | ⟨4, _⟩ => ⟨(j 4).val, (j 4).isLt⟩

/-- Entry `y` of block `t`, as an entry of the region: block `t` is block (t / 10, t % 10) of the two leading axes. -/
def place (p : Fin 160 × Block.Idx) : Region.Idx := fun a => match a with
  | ⟨0, _⟩ => ⟨8 * (p.1.val / 10) + (p.2 0).val, by
      have h0 : (p.2 0).val < 8 := (p.2 0).isLt; have ht := p.1.isLt; show _ < 128; omega⟩
  | ⟨1, _⟩ => ⟨10 * (p.1.val % 10) + (p.2 1).val, by
      have h1 : (p.2 1).val < 10 := (p.2 1).isLt; show _ < 100; omega⟩
  | ⟨2, _⟩ => ⟨(p.2 2).val, (p.2 2).isLt⟩
  | ⟨3, _⟩ => ⟨(p.2 3).val, (p.2 3).isLt⟩
  | ⟨4, _⟩ => ⟨(p.2 4).val, (p.2 4).isLt⟩

/-- The block and the place inside it of an entry of the region. -/
def unplace (j : Region.Idx) : Fin 160 × Block.Idx :=
  (⟨10 * ((j 0).val / 8) + (j 1).val / 10, by
      have h0 : (j 0).val < 128 := (j 0).isLt; have h1 : (j 1).val < 100 := (j 1).isLt; omega⟩,
    fun a => match a with
    | ⟨0, _⟩ => ⟨(j 0).val % 8, by show _ < 8; omega⟩
    | ⟨1, _⟩ => ⟨(j 1).val % 10, by show _ < 10; omega⟩
    | ⟨2, _⟩ => ⟨(j 2).val, (j 2).isLt⟩
    | ⟨3, _⟩ => ⟨(j 3).val, (j 3).isLt⟩
    | ⟨4, _⟩ => ⟨(j 4).val, (j 4).isLt⟩)

/-- Blocks and places against entries of the region: a bijection. -/
def regroup : Fin 160 × Block.Idx ≃ Region.Idx where
  toFun := place
  invFun := unplace
  left_inv := by
    rintro ⟨t, y⟩
    have ht := t.isLt
    have h0 : (y 0).val < 8 := (y 0).isLt
    have h1 : (y 1).val < 10 := (y 1).isLt
    refine Prod.ext (Fin.ext ?_) (funext fun a => ?_)
    · show 10 * ((8 * (t.val / 10) + (y 0).val) / 8) + (10 * (t.val % 10) + (y 1).val) / 10 = t.val
      omega
    · match a with
      | ⟨0, _⟩ => exact Fin.ext (show (8 * (t.val / 10) + (y 0).val) % 8 = (y 0).val by omega)
      | ⟨1, _⟩ => exact Fin.ext (show (10 * (t.val % 10) + (y 1).val) % 10 = (y 1).val by omega)
      | ⟨2, _⟩ => rfl
      | ⟨3, _⟩ => rfl
      | ⟨4, _⟩ => rfl
  right_inv := by
    intro j
    have h0 : (j 0).val < 128 := (j 0).isLt
    have h1 : (j 1).val < 100 := (j 1).isLt
    funext a
    match a with
    | ⟨0, _⟩ =>
      exact Fin.ext (show 8 * ((10 * ((j 0).val / 8) + (j 1).val / 10) / 10) + (j 0).val % 8 = (j 0).val by omega)
    | ⟨1, _⟩ =>
      exact Fin.ext (show 10 * ((10 * ((j 0).val / 8) + (j 1).val / 10) % 10) + (j 1).val % 10 = (j 1).val by omega)
    | ⟨2, _⟩ => rfl
    | ⟨3, _⟩ => rfl
    | ⟨4, _⟩ => rfl

/-- Entry `y` of block `t`, as an entry of the array. -/
def blockIdx (t : Fin 160) (y : Block.Idx) : Arr.Idx := regionIdx (place (t, y))

/-- Block by block or entry by entry, the region is summed once: the sum over the blocks of each block's sum of `f`
    is the sum of `f` over the region. -/
theorem sum_blocks {M : Type*} [AddCommMonoid M] (f : Arr.Idx → M) :
    ∑ t : Fin 160, ∑ y : Block.Idx, f (blockIdx t y) = ∑ j : Region.Idx, f (regionIdx j) := by
  rw [← Fintype.sum_prod_type' (f := fun t y => f (blockIdx t y))]
  exact Fintype.sum_equiv regroup _ _ (fun _ => rfl)

/-- The absolute difference at an entry, on the extended reals: the larger of the difference and its negative. -/
def absDiff (x0 x1 : Arr.Idx → EReal) (i : Arr.Idx) : EReal := max (x1 i - x0 i) (-(x1 i - x0 i))

/-- The sum of the absolute differences over the region, -/
def regionSum (x0 x1 : Arr.Idx → EReal) : EReal := ∑ j : Region.Idx, absDiff x0 x1 (regionIdx j)

/-- and over one block. -/
def blockSum (x0 x1 : Arr.Idx → EReal) (t : Fin 160) : EReal := ∑ y : Block.Idx, absDiff x0 x1 (blockIdx t y)

theorem sum_blockSum (x0 x1 : Arr.Idx → EReal) : ∑ t : Fin 160, blockSum x0 x1 t = regionSum x0 x1 :=
  sum_blocks (absDiff x0 x1)

/-- The mean absolute difference: the region's sum divided by the count 39321600 = 128 * 100 * 3 * 32 * 32, the count
    given by the word both programs carry for it. -/
def meanAbsDiff (x0 x1 : Arr.Idx → EReal) : (⟨0, ![]⟩ : Shape).Idx → Ideal .f32 :=
  fun _ => Ideal.div (regionSum x0 x1) (Ideal.ofBits .f32 0x4C160000#32)

end Cert.MeanAbsDiff

end
-- ==== Proof.BlockRead.lean ====
/-
  What the two input blocks at a grid point are: entry `y` of the block fetched at point `t` is the array's entry
  (8 (t / 10) + y0, 10 (t % 10) + y1, y2, y3, y4). A block's coordinate is always block index times block size plus the
  coordinate inside the block, and the block index at point `t` is (t / 10, t % 10, 0, 0, 0): the grid is walked row by
  row, ten points to a row, and the channel block is always the first.
-/
import proofs.«139717_j33758442946605_2_alg».proof.Proof.Gen.KernelIdeal.Frame
import proofs.«139717_j33758442946605_2_alg».proof.Proof.Spec
import Idealize.ShloMosaic.Lib.Pipeline.Value

noncomputable section

open Idealize.ShloMosaic Idealize.ShloMosaic.TcCoe Idealize.SL.Sem

namespace Cert.KernelIdeal.BlockRead

open Cert.KernelIdeal Cert.KernelIdeal.Gen Cert.MeanAbsDiff

variable {F : FTy → Type} [FloatOps F]
variable (m : (ℓ : Loc nD τ sig) → Buf (Elt F) ℓ)

/-- A grid point's number, as a number below 160. -/
def pt (t : Fin cfg0.N) : Fin 160 := ⟨t.val, lt_of_lt_of_eq t.isLt (show cfg0.N = 160 from N_0)⟩

/-- The block index of the first input at every point, -/
theorem index0 : ∀ t : Fin cfg0.N, win0_0.index t 0 = t.val / 10 ∧ win0_0.index t 1 = t.val % 10
    ∧ win0_0.index t 2 = 0 ∧ win0_0.index t 3 = 0 ∧ win0_0.index t 4 = 0 :=
  (by decide +kernel : ∀ t : Fin grid0.N, win0_0.index t 0 = t.val / 10 ∧ win0_0.index t 1 = t.val % 10
    ∧ win0_0.index t 2 = 0 ∧ win0_0.index t 3 = 0 ∧ win0_0.index t 4 = 0)

/-- and of the second: the same. -/
theorem index1 : ∀ t : Fin cfg0.N, win0_1.index t 0 = t.val / 10 ∧ win0_1.index t 1 = t.val % 10
    ∧ win0_1.index t 2 = 0 ∧ win0_1.index t 3 = 0 ∧ win0_1.index t 4 = 0 :=
  (by decide +kernel : ∀ t : Fin grid0.N, win0_1.index t 0 = t.val / 10 ∧ win0_1.index t 1 = t.val % 10
    ∧ win0_1.index t 2 = 0 ∧ win0_1.index t 3 = 0 ∧ win0_1.index t 4 = 0)

/-- The first input's block at point `t`, entry by entry. -/
theorem block0_apply (c : Dev nD) (t : Fin cfg0.N) (y : S8x10x3x32x32.Idx) :
    (iblk m c 0 t : Vec F S8x10x3x32x32 .f32) y = m ((c : Thread nD τ).loc main_arg0) (blockIdx (pt t) y) := by
  obtain ⟨i0, i1, i2, i3, i4⟩ := index0 t
  unfold iblk
  rw [View.read_apply]
  show V m c main_arg0 _ = m (c.tc.loc main_arg0) _
  unfold V
  congr 1
  funext a
  apply Fin.ext
  match a with
  | ⟨0, _⟩ => show win0_0.index t 0 * 8 + 1 * (y 0).val = 8 * (t.val / 10) + (y 0).val; rw [i0]; omega
  | ⟨1, _⟩ => show win0_0.index t 1 * 10 + 1 * (y 1).val = 10 * (t.val % 10) + (y 1).val; rw [i1]; omega
  | ⟨2, _⟩ => show win0_0.index t 2 * 3 + 1 * (y 2).val = (y 2).val; rw [i2]; omega
  | ⟨3, _⟩ => show win0_0.index t 3 * 32 + 1 * (y 3).val = (y 3).val; rw [i3]; omega
  | ⟨4, _⟩ => show win0_0.index t 4 * 32 + 1 * (y 4).val = (y 4).val; rw [i4]; omega

/-- The second input's block at point `t`, entry by entry. -/
theorem block1_apply (c : Dev nD) (t : Fin cfg0.N) (y : S8x10x3x32x32.Idx) :
    (iblk m c 1 t : Vec F S8x10x3x32x32 .f32) y = m ((c : Thread nD τ).loc main_arg1) (blockIdx (pt t) y) := by
  obtain ⟨i0, i1, i2, i3, i4⟩ := index1 t
  unfold iblk
  rw [View.read_apply]
  show V m c main_arg1 _ = m (c.tc.loc main_arg1) _
  unfold V
  congr 1
  funext a
  apply Fin.ext
  match a with
  | ⟨0, _⟩ => show win0_1.index t 0 * 8 + 1 * (y 0).val = 8 * (t.val / 10) + (y 0).val; rw [i0]; omega
  | ⟨1, _⟩ => show win0_1.index t 1 * 10 + 1 * (y 1).val = 10 * (t.val % 10) + (y 1).val; rw [i1]; omega
  | ⟨2, _⟩ => show win0_1.index t 2 * 3 + 1 * (y 2).val = (y 2).val; rw [i2]; omega
  | ⟨3, _⟩ => show win0_1.index t 3 * 32 + 1 * (y 3).val = (y 3).val; rw [i3]; omega
  | ⟨4, _⟩ => show win0_1.index t 4 * 32 + 1 * (y 4).val = (y 4).val; rw [i4]; omega

end Cert.KernelIdeal.BlockRead

end
-- ==== Proof.Accumulate.lean ====
/-
  The accumulator over the grid, on the extended reals: after point `n` it holds the sum of the block sums of points
  0 .. n. By induction on the point: the first point leaves zero plus its block's sum, each later point adds its
  block's sum to what the point before left. After the last point, number 159, that is the sum over all 160 blocks,
  which is the sum over the region; and the output's buffer holds the same.
-/
import proofs.«139717_j33758442946605_2_alg».proof.Proof.PointValues
import proofs.«139717_j33758442946605_2_alg».proof.Proof.BodySum
import proofs.«139717_j33758442946605_2_alg».proof.Proof.BlockRead

noncomputable section

open Idealize.ShloMosaic Idealize.ShloMosaic.TcCoe Idealize.SL.Sem
open scoped BigOperators

namespace Cert.KernelIdeal.Accumulate

open Cert.KernelIdeal Cert.KernelIdeal.Gen Cert.MeanAbsDiff
open Cert.KernelIdeal.PointValues Cert.KernelIdeal.BodySum Cert.KernelIdeal.BlockRead

variable (m : (ℓ : Loc nD τ sig) → Buf (Elt Ideal) ℓ)

/-- The two argument arrays on core `c`, as functions of the array's index. -/
abbrev arr0 (c : Dev nD) : Arr.Idx → EReal := m ((c : Thread nD τ).loc main_arg0)
abbrev arr1 (c : Dev nD) : Arr.Idx → EReal := m ((c : Thread nD τ).loc main_arg1)

/-- One run of the body at point `t` adds that point's block sum to the accumulator. -/
theorem body_adds (c : Dev nD) (t : Fin cfg0.N) (acc : Vec Ideal S1x1 .f32) (j : S1x1.Idx) :
    k0_pay2 (F := Ideal) (iblk m c 1 t) (iblk m c 0 t) acc j = acc j + blockSum (arr0 m c) (arr1 m c) (pt t) := by
  refine (body_sum (iblk m c 1 t) (iblk m c 0 t) acc j).trans ?_
  refine congrArg (acc j + ·) ?_
  unfold blockSum absDiff
  refine Finset.sum_congr rfl fun y _ => ?_
  rw [block1_apply m c t y, block0_apply m c t y]

/-- Block sums by number, zero past the grid. -/
def blockSumAt (c : Dev nD) (k : ℕ) : EReal :=
  if hk : k < 160 then blockSum (arr0 m c) (arr1 m c) ⟨k, hk⟩ else 0

theorem blockSumAt_pt (c : Dev nD) (t : Fin cfg0.N) : blockSumAt m c t.val = blockSum (arr0 m c) (arr1 m c) (pt t) :=
  dif_pos (pt t).isLt

/-- The accumulator after point `n`: the block sums of points 0 .. n. -/
theorem acc_after (c : Dev nD) : ∀ (n : ℕ) (h : n < cfg0.N) (j : S1x1.Idx),
    (outsAt0 m c n h).2 j = ∑ k ∈ Finset.range (n + 1), blockSumAt m c k
  | 0, h, j => by
    rw [acc_at_first m c ⟨0, h⟩ rfl (by show ¬(0 : ℕ) % 160 = 159; decide), body_adds m c ⟨0, h⟩, zero_block, zero_add, Finset.sum_range_one]
    exact (blockSumAt_pt m c ⟨0, h⟩).symm
  | n + 1, h, j => by
    rw [acc_at_later m c ⟨n + 1, h⟩ (by show ¬(n + 1) % 160 = 0; have hN : n + 1 < 160 := lt_of_lt_of_eq h N_0; omega)
      (Nat.lt_of_succ_lt h), body_adds m c ⟨n + 1, h⟩]
    show (outsAt0 m c n _).2 j + _ = _
    rw [acc_after c n (Nat.lt_of_succ_lt h) j, Finset.sum_range_succ _ (n + 1)]
    exact congrArg (_ + ·) (blockSumAt_pt m c ⟨n + 1, h⟩).symm

/-- All 160 block sums make the region's sum. -/
theorem all_blocks (c : Dev nD) : ∑ k ∈ Finset.range 160, blockSumAt m c k = regionSum (arr0 m c) (arr1 m c) := by
  rw [← Fin.sum_univ_eq_sum_range (fun k => blockSumAt m c k) 160, ← sum_blockSum]
  exact Finset.sum_congr rfl fun t _ => dif_pos t.isLt

/-- After the last point the output's buffer holds the region's sum. -/
theorem out_final (c : Dev nD) (t : Fin cfg0.N) (ht : t.val = 159) (j : S1x1.Idx) :
    (outsAt0 m c t.val t.isLt).1 j = regionSum (arr0 m c) (arr1 m c) := by
  rw [out_at_last m c t (by omega) (by omega), acc_after m c t.val t.isLt j, ht]
  exact all_blocks m c

end Cert.KernelIdeal.Accumulate

end
-- ==== Proof.KernelValue.lean ====
/-
  The kernel program's result is the mean absolute difference.

  The output array has one entry and one block, written back once, after the last grid point, from the output's buffer:
  so after the region it holds the region's sum of absolute differences. The host then drops the array's two unit axes
  and divides by the count.
-/
import proofs.«139717_j33758442946605_2_alg».proof.Proof.Accumulate
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.MeanAbsDiff Cert.KernelIdeal.Accumulate

variable (m : (ℓ : Loc nD τ sig) → Buf (Elt Ideal) ℓ) (ρ : Dev nD → PrngReg)

/-- The one-entry output array after the region: the region's sum. -/
abbrev total (c : Dev nD) : Buf (Elt Ideal) ((c : Thread nD τ).loc main_v0) := fun _ => regionSum (arr0 m c) (arr1 m c)

/-- The output's block index is (0, 0) at every point. -/
theorem out_index : ∀ t : Fin cfg0.N, win0_2.index t 0 = 0 ∧ win0_2.index t 1 = 0 :=
  (by decide +kernel : ∀ t : Fin grid0.N, win0_2.index t 0 = 0 ∧ win0_2.index t 1 = 0)

/-- The one write-back, after the last point, writes the region's sum: the block is the whole array. -/
theorem flushed_eq (c : Dev nD) (t : Fin cfg0.N) (hf : (cfg0.win 2).flush t = true) :
    (dats m 0 c).flushed 2 t = ((cfg0.win 2).blk t).view.read (Elt Ideal) (total m c) := by
  have hN : cfg0.N = 160 := N_0
  have hlast : t.val = 159 := by have := (flush0_2 t).mp hf; have := t.isLt; omega
  obtain ⟨i0, i1⟩ := out_index t
  show (cfg0.win 2).cut (grid0.coords t) ((dats m 0 c).after 2 t) = _
  rw [after0_2]
  have e : (outsAt0 m c t.val t.isLt).1 = total m c := funext fun j => out_final m c t hlast j
  rw [e]
  have hz : (fun a => win0_2.index t a * main_v0.ty.shape.size a) = fun _ => 0 := funext fun a => by
    match a with
    | ⟨0, _⟩ => show win0_2.index t 0 * _ = 0; rw [i0, Nat.zero_mul]
    | ⟨1, _⟩ => show win0_2.index t 1 * _ = 0; rw [i1, Nat.zero_mul]
  exact (Memref.read_access_unit_zero (Elt Ideal) main_v0 hz (fun a => by rw [congrFun hz a]; simp) (total m c)).symm

/-- So the output array ends holding the region's sum. -/
theorem final_out (c : Dev nD) : (dats m 0 c).arrAt 2 cfg0.N = total m c := by
  have hN : cfg0.N = 160 := N_0
  refine (dats m 0 c).arrAt_eq_of_cover 2 (total m c) (flushed_eq m c) fun i => ?_
  have hl : 159 < cfg0.N := by omega
  refine ⟨⟨159, hl⟩, (flush0_2 ⟨159, hl⟩).mpr rfl, ?_⟩
  obtain ⟨i0, i1⟩ := out_index ⟨159, hl⟩
  show i ∈ ((View.whole main_v0).slice (win0_2.rect ⟨159, hl⟩)).set
  rw [View.set_slice_whole, Rect.mem_set_unit]
  intro a
  have h0 : (i 0 : Nat) < 1 := (i 0).isLt
  have h1 : (i 1 : Nat) < 1 := (i 1).isLt
  match a with
  | ⟨0, _⟩ =>
    show win0_2.index ⟨159, hl⟩ 0 * 1 ≤ (i 0 : Nat) ∧ (i 0 : Nat) < win0_2.index ⟨159, hl⟩ 0 * 1 + 1
    rw [i0]; omega
  | ⟨1, _⟩ =>
    show win0_2.index ⟨159, hl⟩ 1 * 1 ≤ (i 1 : Nat) ∧ (i 1 : Nat) < win0_2.index ⟨159, hl⟩ 1 * 1 + 1
    rw [i1]; omega

/-- The host's two operations after the region — dropping the unit axes, dividing by the count — leave the mean. -/
theorem tail_value (c : Dev nD) :
    Pipeline.afterTail₀ cfgs (dats m) 0 (V0 m) [hostOps1] c main_v2 = meanAbsDiff (arr0 m c) (arr1 m c) := by
  unfold Pipeline.afterTail₀
  show StableHlo.after hostOps1 _ (Proc.devRef .tc main_v2) = _
  after_results
  rw [(Pipeline.withArrays_arr spec0 launch0.win.arr_inj c _ _ 2).trans (final_out m c)]
  rfl

/-- The kernel program's run, read: its result is the mean absolute difference of its two arguments, which it leaves
    unchanged. -/
theorem run : θ_run defs (onTc (τ := τ) (main (F := Ideal))) ⟨m, fun _ => 0, ρ⟩ fun r => ∀ c : Dev nD,
      r.2.mem ((c.tc : Thread nD τ).loc main_v2) = meanAbsDiff (arr0 m c) (arr1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (by decide)).trans (tail_value m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KernelValue

end
-- ==== Proof.RefValue.lean ====
/-
  The reference program's result is the mean absolute difference.

  The reference slices channels 0, 1, 2 out of both arrays, subtracts, takes absolute values, sums everything starting
  from zero and divides by the count. Read one operation at a time at an index, that is zero plus the region's sum of
  `|x1 - x0|`, divided by the count: the mean absolute difference.
-/
import proofs.«139717_j33758442946605_2_alg».proof.Proof.Gen.ReferenceIdeal.Read
import proofs.«139717_j33758442946605_2_alg».proof.Proof.Spec

noncomputable section

open Idealize.ShloMosaic
open scoped BigOperators

namespace Cert.ReferenceIdeal.RefValue

open Cert.ReferenceIdeal Cert.ReferenceIdeal.Read Cert.MeanAbsDiff

/-- The entry of the array that the slice reads for an entry of the region: the same coordinates, for both arrays. -/
theorem slice0_idx (j : S128x100x3x32x32.Idx) : idx_main_v0 j = regionIdx j := by
  funext a
  match a with
  | ⟨0, _⟩ => rfl
  | ⟨1, _⟩ => rfl
  | ⟨2, _⟩ => rfl
  | ⟨3, _⟩ => rfl
  | ⟨4, _⟩ => rfl

theorem slice1_idx (j : S128x100x3x32x32.Idx) : idx_main_v1 j = regionIdx j := by
  funext a
  match a with
  | ⟨0, _⟩ => rfl
  | ⟨1, _⟩ => rfl
  | ⟨2, _⟩ => rfl
  | ⟨3, _⟩ => rfl
  | ⟨4, _⟩ => rfl

/-- The reference's result, as a function of the two arrays, is the mean absolute difference. -/
theorem reference_is_mean (x0 x1 : (⟨S128x100x6x32x32, .f32⟩ : BufTy).Contents (Elt Ideal)) :
    val_main_v5 (F := Ideal) x0 x1 = meanAbsDiff x0 x1 := by
  funext i
  rw [val_main_v5_apply, val_main_v4_apply, val_main_cst_apply, val_main_cst_0_apply]
  show Ideal.div (Ideal.ofBits .f32 0x00000000#32 + ∑ j : S128x100x3x32x32.Idx, val_main_v3 (F := Ideal) x0 x1 j)
      (Ideal.ofBits .f32 0x4C160000#32) = Ideal.div (regionSum x0 x1) (Ideal.ofBits .f32 0x4C160000#32)
  rw [Ideal.ofBits_zero_f32, zero_add]
  refine congrArg (Ideal.div · _) ?_
  unfold regionSum absDiff
  refine Finset.sum_congr rfl fun j _ => ?_
  rw [val_main_v3_apply, val_main_v2_apply, val_main_v0_apply, val_main_v1_apply, slice0_idx, slice1_idx]
  rfl

end Cert.ReferenceIdeal.RefValue

end
-- ==== Proof.lean ====
/-
  The kernel and the reference compute one number: the mean of |x1 - x0| over channels 0, 1, 2 of two arrays of shape
  128 x 100 x 6 x 32 x 32, that is, the sum of the absolute differences over the 128 x 100 x 3 x 32 x 32 region divided
  by the count 39321600, which both programs carry as the same word.

  The reference slices the region out, subtracts, takes absolute values and sums everything at once. The kernel walks
  the region in 16 x 10 blocks of shape 8 x 10 x 3 x 32 x 32; at each block it sums the block's absolute differences
  (row by row, then the row sums) and adds the result to a one-entry accumulator, which it sets to zero at the first
  block and copies to its one-entry output after the last. On the extended reals addition is commutative and
  associative and zero is neutral, so the accumulator ends at the sum over all blocks; every entry of the region lies
  in exactly one block, so that is the region's sum. No distributivity or cancellation is used, hence no finiteness.

  The modules: Spec (the region, the blocks, the bijection between them, the mean as one function), CaseValues and
  PointValues (what the body leaves in the accumulator and the output's buffer at the first, the middle and the last
  point), BodySum (the body's arithmetic as one sum), BlockRead (a block's entries as entries of the array), Accumulate
  (the induction over the grid), KernelValue (the output array, the host's final division, the kernel's run), RefValue
  (the reference's run read as the mean).
-/
import proofs.«139717_j33758442946605_2_alg».proof.Defs
import proofs.«139717_j33758442946605_2_alg».proof.Proof.Gen.Kernel
import proofs.«139717_j33758442946605_2_alg».proof.Proof.Gen.Kernel.Frame
import proofs.«139717_j33758442946605_2_alg».proof.Proof.Gen.KernelIdeal
import proofs.«139717_j33758442946605_2_alg».proof.Proof.Gen.KernelIdeal.Frame
import proofs.«139717_j33758442946605_2_alg».proof.Proof.Gen.ReferenceIdeal
import proofs.«139717_j33758442946605_2_alg».proof.Proof.Gen.ReferenceIdeal.Run
import proofs.«139717_j33758442946605_2_alg».proof.Proof.Gen.ReferenceIdeal.Read
import proofs.«139717_j33758442946605_2_alg».proof.Proof.Gen.Pre_finite_inputs
import proofs.«139717_j33758442946605_2_alg».proof.Proof.KernelValue
import proofs.«139717_j33758442946605_2_alg».proof.Proof.RefValue
import Idealize.ShloMosaic.Adequacy
import Idealize.ShloMosaic.Init

noncomputable section

namespace Cert.Proof

open Idealize.ShloMosaic Idealize.ShloMosaic.TcCoe Idealize.SL.Sem

/-- Each kernel program terminates without a fault and leaves its arguments unchanged. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- On the extended reals both programs end at the mean absolute difference of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.RefValue.reference_is_mean,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
